-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S1600000 32) (main_arg2 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S4000x128 : Shape := ⟨2, ![4000, 128]⟩
abbrev S4000x1 : Shape := ⟨2, ![4000, 1]⟩
abbrev S4000x256 : Shape := ⟨2, ![4000, 256]⟩

abbrev nBuf : Space → Nat
  | .hbm => 27
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x128, .f32⟩
  | .hbm, ⟨12, _⟩ => ⟨S_, .f32⟩
  | .hbm, ⟨13, _⟩ => ⟨S100000x128, .f32⟩
  | .hbm, ⟨14, _⟩ => ⟨S1600000x1, .i32⟩
  | .hbm, ⟨15, _⟩ => ⟨S100000x128, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x256, .f32⟩
  | .local _ .vmem, ⟨7, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x256_S4000x128_0_0 : ∀ a, (![0, 0] : Fin 2 → Nat) a + S4000x128.size a ≤ S4000x256.size a
  inb_S4000x256_S4000x128_0_128 : ∀ a, (![0, 128] : Fin 2 → Nat) a + S4000x128.size a ≤ S4000x256.size a
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩

abbrev nBuf : Space → Nat
  | .hbm => 30
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x128, .f32⟩
  | .hbm, ⟨12, _⟩ => ⟨S_, .f32⟩
  | .hbm, ⟨13, _⟩ => ⟨S100000x128, .f32⟩
  | .hbm, ⟨14, _⟩ => ⟨S1600000x1, .i32⟩
  | .hbm, ⟨15, _⟩ => ⟨S100000x128, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x128, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Spec.lean ====
/-
  The function both programs compute, stated once over the extended reals.

  For a table `x` of `R` rows of 128 features, a table `nb` of the same shape (each row the sum of the feature
  rows of the row's in-neighbours) and a column `d` (the row's in-degree plus one), the result has 256 columns:
  columns 0‥127 repeat `x`, and column 128 + c of row r holds `(nb r c + x r c) / d r` — the mean of the row's
  closed neighbourhood. The definition is generic in the number of rows, so that it reads both the whole array
  (100000 rows) and one block of it (4000 rows): a block of rows of `combine` is `combine` of the blocks.
-/
import Idealize.ShloMosaic.PureOps.Ideal
import Idealize.ShloMosaic.Lib.ValueIdx

noncomputable section

namespace Cert.Combine

open Idealize.ShloMosaic Idealize.ShloMosaic.ValueIdx

/-- Features beside the closed-neighbourhood mean: `x` on the left 128 columns, `(nb + x) / d` on the right 128. -/
def combine (R : Nat) (x nb : Fin R → Fin 128 → EReal) (d : Fin R → EReal) : Fin R → Fin 256 → EReal :=
  fun r k => if h : k.val < 128 then x r ⟨k.val, h⟩
    else Ideal.div (nb r ⟨k.val - 128, by have := k.isLt; omega⟩ + x r ⟨k.val - 128, by have := k.isLt; omega⟩) (d r)

/-- On the left half the result is the feature itself. -/
theorem combine_left (R : Nat) (x nb : Fin R → Fin 128 → EReal) (d : Fin R → EReal) (r : Fin R) (k : Fin 256) (c : Fin 128)
    (hk : k.val = c.val) : combine R x nb d r k = x r c := by
  have h : k.val < 128 := by have := c.isLt; omega
  unfold combine
  rw [dif_pos h]
  exact congrArg (x r) (Fin.ext hk)

/-- On the right half it is the neighbourhood sum plus the feature, over the degree plus one. -/
theorem combine_right (R : Nat) (x nb : Fin R → Fin 128 → EReal) (d : Fin R → EReal) (r : Fin R) (k : Fin 256) (c : Fin 128)
    (hk : k.val = c.val + 128) : combine R x nb d r k = Ideal.div (nb r c + x r c) (d r) := by
  have h : ¬ k.val < 128 := by omega
  have e : (⟨k.val - 128, by have := k.isLt; omega⟩ : Fin 128) = c := Fin.ext (by show k.val - 128 = c.val; omega)
  unfold combine
  rw [dif_neg h, e]

end Cert.Combine

end
-- ==== Proof.Block.lean ====
/-
  What the kernel body leaves in one output block. The body stores the 4000 × 128 block of features into columns
  0‥127 of the 4000 × 256 output block, and into columns 128‥255 the block of neighbourhood sums plus the features,
  each row divided by that row's entry of the 4000 × 1 degree column. Both stores are pieces of one function of the
  output block's index — `combine` of the three input blocks — so the block as a whole is that function.
-/
import proofs.«118623_j7060926234625_2_alg».proof.Proof.Gen.KernelIdeal.Frame
import proofs.«118623_j7060926234625_2_alg».proof.Proof.Spec
import Idealize.ShloMosaic.Lib.Pipeline.Value
import Idealize.ShloMosaic.Lib.ValueIdx

noncomputable section

namespace Cert.Block

open Idealize.ShloMosaic Idealize.ShloMosaic.ValueIdx Cert.KernelIdeal Cert.KernelIdeal.Gen Cert.Combine

/-- One output block as a function of the three input blocks. -/
def blockResult (x0 x1 : Vec Ideal S4000x128 .f32) (x2 : Vec Ideal S4000x1 .f32) : Vec Ideal S4000x256 .f32 :=
  fun j => combine 4000 (fun r c => x0 (ix2 r c)) (fun r c => x1 (ix2 r c)) (fun r => x2 (ix2 r (0 : Fin 1))) (j 0) (j 1)

theorem zero_offsets : (![0, 0] : Fin 2 → Nat) = fun _ => 0 := funext fun a => by fin_cases a <;> rfl

/-- The quotient the body stores on the right, at row `r` and feature `c`: the degree column is stretched over the
    features, so every feature of a row is divided by the row's one degree entry. -/
theorem quotient_at (x0 x1 : Vec Ideal S4000x128 .f32) (x2 : Vec Ideal S4000x1 .f32) (r : Fin 4000) (c : Fin 128) :
    k0_pay1 (F := Ideal) x0 x1 x2 (ix2 r c) = Ideal.div (x1 (ix2 r c) + x0 (ix2 r c)) (x2 (ix2 r (0 : Fin 1))) := by
  unfold k0_pay1
  show Ideal.div (shapeCast S4000x128 x1 _ (ix2 r c) + x0 (ix2 r c))
    (broadcastTo S4000x128 (shapeCast S4000x1 x2 _) _ (ix2 r c)) = _
  rw [shapeCast_self, shapeCast_self]
  refine congrArg (Ideal.div (x1 (ix2 r c) + x0 (ix2 r c))) ?_
  refine broadcastTo_apply x2 _ (ix2 r c) (ix2 r (0 : Fin 1)) ?_
  intro a
  match a with
  | ⟨0, _⟩ => show r.val = if (4000 : Nat) = 1 then 0 else r.val; rw [if_neg (by decide)]
  | ⟨1, _⟩ => show 0 = if (1 : Nat) = 1 then 0 else c.val; rw [if_pos rfl]

/-- The store into the right 128 columns is the right half of `blockResult`. -/
theorem right_piece (x0 x1 : Vec Ideal S4000x128 .f32) (x2 : Vec Ideal S4000x1 .f32) (x : r0_3.shape.Idx) :
    k0_pay1 (F := Ideal) x0 x1 x2 x = blockResult x0 x1 x2 (r0_3.emb x) := by
  obtain ⟨r, c, rfl⟩ : ∃ (r : Fin 4000) (c : Fin 128), x = ix2 r c := ⟨x 0, x 1, eq_ix2 x⟩
  have e0 : (r0_3.emb (ix2 r c) 0 : Fin 4000) = r := Fin.ext (by show 0 + 1 * r.val = r.val; omega)
  have e1 : ((r0_3.emb (ix2 r c) 1 : Fin 256)).val = c.val + 128 := by show 128 + 1 * c.val = c.val + 128; omega
  rw [quotient_at]
  unfold blockResult
  rw [e0]
  exact (combine_right 4000 (fun r c => x0 (ix2 r c)) (fun r c => x1 (ix2 r c)) (fun r => x2 (ix2 r (0 : Fin 1))) r _ c e1).symm

/-- The store into the left 128 columns is the left half of `blockResult`. -/
theorem left_piece (x0 x1 : Vec Ideal S4000x128 .f32) (x2 : Vec Ideal S4000x1 .f32) (x : r0_2.shape.Idx) :
    x0 x = blockResult x0 x1 x2 (r0_2.emb x) := by
  obtain ⟨r, c, rfl⟩ : ∃ (r : Fin 4000) (c : Fin 128), x = ix2 r c := ⟨x 0, x 1, eq_ix2 x⟩
  have e0 : (r0_2.emb (ix2 r c) 0 : Fin 4000) = r := Fin.ext (by show 0 + 1 * r.val = r.val; omega)
  have e1 : ((r0_2.emb (ix2 r c) 1 : Fin 256)).val = c.val := by show 0 + 1 * c.val = c.val; omega
  unfold blockResult
  rw [e0]
  exact (combine_left 4000 (fun r c => x0 (ix2 r c)) (fun r c => x1 (ix2 r c)) (fun r => x2 (ix2 r (0 : Fin 1))) r _ c e1).symm

/-- The output block after the body is `blockResult` of the input blocks. -/
theorem out_eq (x0 x1 : Vec Ideal S4000x128 .f32) (x2 : Vec Ideal S4000x1 .f32) :
    out0_3 (F := Ideal) x0 x1 x2 = blockResult x0 x1 x2 := by
  unfold out0_3
  simp only [View.ld_unit_zero (S := S4000x128) zero_offsets, View.ld_unit_zero (S := S4000x1) zero_offsets]
  funext j
  refine View.canon_apply_of_pieces (blockResult x0 x1 x2) _ ?_ j (cover0_3 _ _ j)
  intro p hp x
  rcases List.mem_cons.mp hp with rfl | hp
  · exact right_piece x0 x1 x2 x
  · rcases List.mem_cons.mp hp with rfl | hp
    · exact left_piece x0 x1 x2 x
    · exact absurd hp List.not_mem_nil

end Cert.Block

end
-- ==== Proof.KernelValue.lean ====
/-
  The kernel's output array after the run. The grid has 25 points; point `t` reads rows 4000·t ‥ 4000·t + 3999 of the
  feature table, of the neighbourhood-sum table and of the degree column, and writes the same rows (all 256 columns)
  of the output. Each written block is `blockResult` of the three input blocks, which is the block of rows of ONE
  function of the whole arrays (`whole`, i.e. `combine` over 100000 rows); the 25 blocks cover every row, so the
  array ends as that function.
-/
import proofs.«118623_j7060926234625_2_alg».proof.Proof.Gen.KernelIdeal.Value
import proofs.«118623_j7060926234625_2_alg».proof.Proof.Block
import Idealize.ShloMosaic.Lib.Pipeline.Value
import Idealize.ShloMosaic.Lib.ValueIdx

noncomputable section

namespace Cert.KernelValue

open Idealize.ShloMosaic Idealize.ShloMosaic.TcCoe Idealize.SL.Sem Idealize.ShloMosaic.ValueIdx
open Cert.KernelIdeal Cert.KernelIdeal.Gen Cert.Combine Cert.Block
open Idealize.ShloMosaic.Pipeline (Dat)

/-- The whole output as a function of the three operand arrays of the region. -/
def whole (x0 nb : S100000x128.Idx → EReal) (d : S100000x1.Idx → EReal) : S100000x256.Idx → EReal :=
  fun j => combine 100000 (fun r c => x0 (ix2 r c)) (fun r c => nb (ix2 r c)) (fun r => d (ix2 r (0 : Fin 1))) (j 0) (j 1)

/-- Input blocks that are the rows `f r` of the whole arrays give the rows `f r` of the whole output. -/
theorem block_of_whole (x0 nb : S100000x128.Idx → EReal) (d : S100000x1.Idx → EReal)
    (b0 b1 : Vec Ideal S4000x128 .f32) (b2 : Vec Ideal S4000x1 .f32) (f : Fin 4000 → Fin 100000)
    (h0 : ∀ r c, b0 (ix2 r c) = x0 (ix2 (f r) c)) (h1 : ∀ r c, b1 (ix2 r c) = nb (ix2 (f r) c))
    (h2 : ∀ r, b2 (ix2 r (0 : Fin 1)) = d (ix2 (f r) (0 : Fin 1))) (r : Fin 4000) (k : Fin 256) :
    blockResult b0 b1 b2 (ix2 r k) = whole x0 nb d (ix2 (f r) k) := by
  have e0 : (fun (r : Fin 4000) (c : Fin 128) => b0 (ix2 r c)) = fun r c => x0 (ix2 (f r) c) :=
    funext fun r => funext fun c => h0 r c
  have e1 : (fun (r : Fin 4000) (c : Fin 128) => b1 (ix2 r c)) = fun r c => nb (ix2 (f r) c) :=
    funext fun r => funext fun c => h1 r c
  have e2 : (fun (r : Fin 4000) => b2 (ix2 r (0 : Fin 1))) = fun r => d (ix2 (f r) (0 : Fin 1)) :=
    funext fun r => h2 r
  unfold blockResult whole
  show combine 4000 (fun r c => b0 (ix2 r c)) (fun r c => b1 (ix2 r c)) (fun r => b2 (ix2 r (0 : Fin 1))) r k = _
  rw [e0, e1, e2]
  rfl

/-- The four index maps over the 25 grid points: every window's block index is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Reading ANY 100000 × 128 array through the first window's block at point `t`: row `r` of the block is row
    4000·t + r of the array, whatever the array holds. -/
theorem rows_window0 (A : S100000x128.Idx → EReal) (t : Fin cfg0.N) (r : Fin 4000) (k : Fin 128) (R : Fin 100000)
    (hR : R.val = t.val * 4000 + r.val) :
    ((cfg0.win 0).blk t).view.read (Elt Ideal) A (ix2 r k) = A (ix2 R k) := by
  obtain ⟨e0, e1, -⟩ := idx_facts t
  have h : ((cfg0.win 0).blk t).view.emb (ix2 r k) = ix2 R k := by
    funext a; apply Fin.ext
    match a with
    | ⟨0, _⟩ => show win0_0.index t (0 : Fin 2) * 4000 + 1 * r.val = R.val; omega
    | ⟨1, _⟩ => show win0_0.index t (1 : Fin 2) * 128 + 1 * k.val = k.val; omega
  show A (((cfg0.win 0).blk t).view.emb (ix2 r k)) = A (ix2 R k)
  rw [h]

/-- The same through the second window. -/
theorem rows_window1 (A : S100000x128.Idx → EReal) (t : Fin cfg0.N) (r : Fin 4000) (k : Fin 128) (R : Fin 100000)
    (hR : R.val = t.val * 4000 + r.val) :
    ((cfg0.win 1).blk t).view.read (Elt Ideal) A (ix2 r k) = A (ix2 R k) := by
  obtain ⟨-, -, e0, e1, -⟩ := idx_facts t
  have h : ((cfg0.win 1).blk t).view.emb (ix2 r k) = ix2 R k := by
    funext a; apply Fin.ext
    match a with
    | ⟨0, _⟩ => show win0_1.index t (0 : Fin 2) * 4000 + 1 * r.val = R.val; omega
    | ⟨1, _⟩ => show win0_1.index t (1 : Fin 2) * 128 + 1 * k.val = k.val; omega
  show A (((cfg0.win 1).blk t).view.emb (ix2 r k)) = A (ix2 R k)
  rw [h]

/-- Through the third window, whose array is a column: entry (r, 0) of the block is entry (4000·t + r, 0). -/
theorem rows_window2 (A : S100000x1.Idx → EReal) (t : Fin cfg0.N) (r : Fin 4000) (R : Fin 100000)
    (hR : R.val = t.val * 4000 + r.val) :
    ((cfg0.win 2).blk t).view.read (Elt Ideal) A (ix2 r (0 : Fin 1)) = A (ix2 R (0 : Fin 1)) := by
  obtain ⟨-, -, -, -, e0, e1, -⟩ := idx_facts t
  have h : ((cfg0.win 2).blk t).view.emb (ix2 r (0 : Fin 1)) = ix2 R (0 : Fin 1) := by
    funext a; apply Fin.ext
    match a with
    | ⟨0, _⟩ => show win0_2.index t (0 : Fin 2) * 4000 + 1 * r.val = R.val; omega
    | ⟨1, _⟩ => show win0_2.index t (1 : Fin 2) * 1 + 1 * 0 = 0; omega
  show A (((cfg0.win 2).blk t).view.emb (ix2 r (0 : Fin 1))) = A (ix2 R (0 : Fin 1))
  rw [h]

/-- Through the output window (256 columns). -/
theorem rows_window3 (A : S100000x256.Idx → EReal) (t : Fin cfg0.N) (r : Fin 4000) (k : Fin 256) (R : Fin 100000)
    (hR : R.val = t.val * 4000 + r.val) :
    ((cfg0.win 3).blk t).view.read (Elt Ideal) A (ix2 r k) = A (ix2 R k) := by
  obtain ⟨-, -, -, -, -, -, e0, e1⟩ := idx_facts t
  have h : ((cfg0.win 3).blk t).view.emb (ix2 r k) = ix2 R k := by
    funext a; apply Fin.ext
    match a with
    | ⟨0, _⟩ => show win0_3.index t (0 : Fin 2) * 4000 + 1 * r.val = R.val; omega
    | ⟨1, _⟩ => show win0_3.index t (1 : Fin 2) * 256 + 1 * k.val = k.val; omega
  show A (((cfg0.win 3).blk t).view.emb (ix2 r k)) = A (ix2 R k)
  rw [h]

variable (m : (ℓ : Loc nD τ sig) → Buf (Elt Ideal) ℓ) (ρ : Dev nD → PrngReg)

/-- Row `r` of the feature block at point `t` is row 4000·t + r of the feature table. -/
theorem features_at (c : Dev nD) (t : Fin cfg0.N) (r : Fin 4000) (k : Fin 128) (R : Fin 100000)
    (hR : R.val = t.val * 4000 + r.val) :
    iblk m c 0 t (ix2 r k) = V m c main_arg0 (ix2 R k) :=
  rows_window0 (V m c main_arg0) t r k R hR

/-- Row `r` of the neighbourhood-sum block at point `t` is row 4000·t + r of the neighbourhood-sum table. -/
theorem neigh_at (c : Dev nD) (t : Fin cfg0.N) (r : Fin 4000) (k : Fin 128) (R : Fin 100000)
    (hR : R.val = t.val * 4000 + r.val) :
    iblk m c 1 t (ix2 r k) = V m c main_v9 (ix2 R k) :=
  rows_window1 (V m c main_v9) t r k R hR

/-- Row `r` of the degree block at point `t` is row 4000·t + r of the degree column. -/
theorem degree_at (c : Dev nD) (t : Fin cfg0.N) (r : Fin 4000) (R : Fin 100000)
    (hR : R.val = t.val * 4000 + r.val) :
    iblk m c 2 t (ix2 r (0 : Fin 1)) = V m c main_v16 (ix2 R (0 : Fin 1)) :=
  rows_window2 (V m c main_v16) t r R hR

/-- What point `t` writes back is block `t` of `whole` of the operand arrays as the region finds them. -/
theorem flushed_eq (c : Dev nD) (t : Fin cfg0.N) :
    (dats m 0 c).flushed 3 t
      = ((cfg0.win 3).blk t).view.read (Elt Ideal) (whole (V m c main_arg0) (V m c main_v9) (V m c main_v16)) := by
  refine (Cert.KernelIdeal.Value.flushed3 m c t).trans ?_
  rw [Block.out_eq (iblk m c 0 t) (iblk m c 1 t) (iblk m c 2 t)]
  have ht : t.val < 25 := lt_of_lt_of_eq t.isLt N_0
  funext j
  obtain ⟨r, k, rfl⟩ : ∃ (r : Fin 4000) (k : Fin 256), j = ix2 r k := ⟨j 0, j 1, eq_ix2 j⟩
  refine Eq.trans ?_ (rows_window3 (whole (V m c main_arg0) (V m c main_v9) (V m c main_v16)) t r k
    (⟨t.val * 4000 + r.val, by have := r.isLt; omega⟩ : Fin 100000) rfl).symm
  show blockResult (iblk m c 0 t) (iblk m c 1 t) (iblk m c 2 t) (ix2 r k) = _
  exact block_of_whole (V m c main_arg0) (V m c main_v9) (V m c main_v16) (iblk m c 0 t) (iblk m c 1 t) (iblk m c 2 t)
    (fun r => (⟨t.val * 4000 + r.val, by have := r.isLt; omega⟩ : Fin 100000))
    (fun r k => features_at m c t r k _ rfl) (fun r k => neigh_at m c t r k _ rfl) (fun r => degree_at m c t r _ rfl) r k

/-- An index of the output is in point `t`'s block iff each coordinate is in the block's range on its axis. -/
theorem mem_blk (t : Fin cfg0.N) (i : S100000x256.Idx) :
    i ∈ ((cfg0.win 3).blk t).view.set ↔ ∀ a : Fin 2, win0_3.index t a * S4000x256.size a ≤ (i a).val
      ∧ (i a).val < win0_3.index t a * S4000x256.size a + S4000x256.size a := by
  show i ∈ ((View.whole main_v17).slice (win0_3.rect t)).set ↔ _
  rw [View.set_slice_whole, Rect.mem_set_unit]
  exact Iff.rfl

/-- Every row lies in the block of the point numbered by the row's quotient by 4000. -/
theorem covered (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : grid0.N = 25 := N_0
  have hq : (i 0).val / 4000 < grid0.N := by omega
  obtain ⟨-, -, -, -, -, -, e6, e7⟩ := idx_facts ⟨(i 0).val / 4000, hq⟩
  have e6' : win0_3.index ⟨(i 0).val / 4000, hq⟩ (0 : Fin 2) = (i 0).val / 4000 := e6
  refine ⟨⟨(i 0).val / 4000, hq⟩, flush0_3 _, ?_⟩
  rw [mem_blk]
  intro a
  match a with
  | ⟨0, _⟩ =>
    show win0_3.index ⟨(i 0).val / 4000, hq⟩ (0 : Fin 2) * 4000 ≤ (i 0).val
      ∧ (i 0).val < win0_3.index ⟨(i 0).val / 4000, hq⟩ (0 : Fin 2) * 4000 + 4000
    omega
  | ⟨1, _⟩ =>
    show win0_3.index ⟨(i 0).val / 4000, hq⟩ (1 : Fin 2) * 256 ≤ (i 1).val
      ∧ (i 1).val < win0_3.index ⟨(i 0).val / 4000, hq⟩ (1 : Fin 2) * 256 + 256
    omega

/-- The output array after the run. -/
theorem final_eq (c : Dev nD) :
    (dats m 0 c).arrAt 3 cfg0.N = whole (V m c main_arg0) (V m c main_v9) (V m c main_v16) :=
  (dats m 0 c).arrAt_eq_of_cover 3 (whole (V m c main_arg0) (V m c main_v9) (V m c main_v16))
    (fun t _ => flushed_eq m c t) covered

/-- The run: the output array ends as `whole` of the region's operand arrays, the arguments unchanged. -/
theorem run : θ_run defs (onTc (τ := τ) (main (F := Ideal))) ⟨m, fun _ => 0, ρ⟩ fun r => ∀ c : Dev nD,
      r.2.mem ((c : Thread nD τ).loc main_v17) = whole (V m c main_arg0) (V m c main_v9) (V m c main_v16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩)
    (Cert.KernelIdeal.Value.run_blocks m ρ)

end Cert.KernelValue

end
-- ==== Proof.HostSide.lean ====
/-
  What the kernel's region finds in its second and third operand arrays. Before the region the program builds, from
  the three arguments, the table of neighbourhood sums (a row gather by source index, scatter-added by destination
  index into a zero table) and the column of degrees plus one (ones scatter-added by destination index, plus one,
  reshaped from length 100000 to 100000 × 1). These are the same operations, on the same arguments, as the
  reference's neighbourhood-sum and degree-plus-one stages; the two are identified whole, never opened. The reshape
  to a column is read at an index: entry (r, 0) of the column is entry r of the vector.
-/
import proofs.«118623_j7060926234625_2_alg».proof.Proof.Gen.KernelIdeal.Frame
import proofs.«118623_j7060926234625_2_alg».proof.Proof.Gen.ReferenceIdeal.Read
import Idealize.ShloMosaic.Lib.StableHlo.Run
import Idealize.ShloMosaic.Lib.Pipeline.Value
import Idealize.ShloMosaic.Lib.ValueIdx

noncomputable section

namespace Cert.HostSide

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ)

/-- The region's second operand is the reference's neighbourhood-sum stage of the three arguments. -/
theorem neigh_eq (c : Dev nD) :
    (V m c main_v9 : S100000x128.Idx → EReal)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]
  after_results
  rfl

/-- The region's third operand is the reference's degree-plus-one stage, reshaped to a column. -/
theorem degree_eq (c : Dev nD) :
    (V m c main_v16 : S100000x1.Idx → EReal)
      = shapeCast S100000x1 (Cert.ReferenceIdeal.Read.val_main_v16 (F := Ideal) (m ((c : Thread nD τ).loc main_arg2)))
          shapeCasts_S100000_S100000x1 := by
  dsimp only [Gen.V, Gen.hostOps0]
  after_results
  rfl

/-- Entry (r, 0) of that column is entry r of the degree-plus-one stage. -/
theorem degree_at (c : Dev nD) (r : Fin 100000) :
    (V m c main_v16 : S100000x1.Idx → EReal) (ix2 r (0 : Fin 1))
      = Cert.ReferenceIdeal.Read.val_main_v16 (F := Ideal) (m ((c : Thread nD τ).loc main_arg2)) (ix1 r) := by
  rw [degree_eq]
  refine shapeCast_apply _ _ (ix2 r (0 : Fin 1)) (ix1 r) ?_
  rw [Shape.rowMajor_val_one, Shape.rowMajor_val_two]
  show r.val = r.val * 1 + 0
  omega

end Cert.HostSide

end
-- ==== Proof.RefSide.lean ====
/-
  The reference, read at an index. Its last four stages — the sum of the neighbourhood table and the features, the
  degree column stretched over the 128 features, the quotient, and the join of the features with that quotient along
  the columns — are exactly `combine` of the feature table, the neighbourhood-sum stage and the degree-plus-one
  stage. The two earlier stages (the gather / scatter-add that builds the neighbourhood sums, and the scatter-add of
  ones that counts in-degrees) are carried whole: both programs compute them by the same operations, so they are
  never opened.
-/
import proofs.«118623_j7060926234625_2_alg».proof.Proof.Gen.ReferenceIdeal.Read
import proofs.«118623_j7060926234625_2_alg».proof.Proof.Spec
import Idealize.ShloMosaic.Lib.Pipeline.Value
import Idealize.ShloMosaic.Lib.ValueIdx

noncomputable section

namespace Cert.RefSide

open Idealize.ShloMosaic Idealize.ShloMosaic.ValueIdx Cert.ReferenceIdeal Cert.ReferenceIdeal.Read Cert.Combine

/-- The whole result as one function of the three arguments: `combine` over the feature table, the
    neighbourhood sums and the degrees plus one, each read by coordinates. -/
def result (x0 : (⟨S100000x128, .f32⟩ : BufTy).Contents (Elt Ideal)) (x1 x2 : (⟨S1600000, .i32⟩ : BufTy).Contents (Elt Ideal)) :
    (⟨S100000x256, .f32⟩ : BufTy).Contents (Elt Ideal) :=
  fun j => combine 100000 (fun r c => x0 (ix2 r c)) (fun r c => val_main_v9 (F := Ideal) x0 x1 x2 (ix2 r c))
    (fun r => val_main_v16 (F := Ideal) x2 (ix1 r)) (j 0) (j 1)

/-- The degree column stretched over the features reads, at row `r`, the degree-plus-one stage at `r`. -/
theorem degree_at (x2 : (⟨S1600000, .i32⟩ : BufTy).Contents (Elt Ideal)) (r : Fin 100000) (c : Fin 128) :
    val_main_v18 (F := Ideal) x2 (ix2 r c) = val_main_v16 (F := Ideal) x2 (ix1 r) := by
  rw [val_main_v18_apply, val_main_v17_apply]
  refine congrArg (val_main_v16 (F := Ideal) x2) ?_
  funext a
  match a with
  | ⟨0, _⟩ => rfl

/-- The reference's result stage is `result`. -/
theorem ref_eq (x0 : (⟨S100000x128, .f32⟩ : BufTy).Contents (Elt Ideal)) (x1 x2 : (⟨S1600000, .i32⟩ : BufTy).Contents (Elt Ideal)) :
    val_main_v20 (F := Ideal) x0 x1 x2 = result x0 x1 x2 := by
  funext j
  obtain ⟨r, k, rfl⟩ : ∃ (r : Fin 100000) (k : Fin 256), j = ix2 r k := ⟨j 0, j 1, eq_ix2 j⟩
  unfold val_main_v20 result
  by_cases hk : k.val < 128
  · -- a column of the left half: the features themselves
    refine (concatenate_pair_apply_left (t := S100000x256) (s₁ := S100000x128) (s₂ := S100000x128) (1 : Fin 2) _ _ _ (ix2 r k) rfl
      (ix2 r (⟨k.val, hk⟩ : Fin 128)) ?_).trans ?_
    · intro b
      match b with
      | ⟨0, _⟩ => rfl
      | ⟨1, _⟩ => rfl
    · show _ = combine 100000 (fun r c => x0 (ix2 r c)) (fun r c => val_main_v9 (F := Ideal) x0 x1 x2 (ix2 r c))
        (fun r => val_main_v16 (F := Ideal) x2 (ix1 r)) r k
      exact (combine_left 100000 (fun r c => x0 (ix2 r c)) (fun r c => val_main_v9 (F := Ideal) x0 x1 x2 (ix2 r c))
        (fun r => val_main_v16 (F := Ideal) x2 (ix1 r)) r k ⟨k.val, hk⟩ rfl).symm
  · -- a column of the right half: the quotient stage
    have hk' : k.val - 128 < 128 := by have := k.isLt; omega
    refine (concatenate_pair_apply_right (t := S100000x256) (s₁ := S100000x128) (s₂ := S100000x128) (1 : Fin 2) _ _ _ (ix2 r k) rfl rfl
      (ix2 r (⟨k.val - 128, hk'⟩ : Fin 128)) ?_ ?_).trans ?_
    · intro b hb
      match b with
      | ⟨0, _⟩ => rfl
      | ⟨1, _⟩ => exact absurd rfl hb
    · show k.val - 128 + 128 = k.val
      omega
    · rw [val_main_v19_apply, val_main_v14_apply, degree_at]
      have hk2 : k.val = (⟨k.val - 128, hk'⟩ : Fin 128).val + 128 := by show k.val = k.val - 128 + 128; omega
      show _ = combine 100000 (fun r c => x0 (ix2 r c)) (fun r c => val_main_v9 (F := Ideal) x0 x1 x2 (ix2 r c))
        (fun r => val_main_v16 (F := Ideal) x2 (ix1 r)) r k
      exact (combine_right 100000 (fun r c => x0 (ix2 r c)) (fun r c => val_main_v9 (F := Ideal) x0 x1 x2 (ix2 r c))
        (fun r => val_main_v16 (F := Ideal) x2 (ix1 r)) r k ⟨k.val - 128, hk'⟩ hk2).symm

end Cert.RefSide

end
-- ==== Proof.Bridge.lean ====
/-
  The two sides meet. The kernel's output array is `combine` over the arrays its region finds: the feature table (the
  first argument, untouched before the region), the neighbourhood-sum table and the degree column. The reference's
  result is `combine` over the first argument and its own neighbourhood-sum and degree-plus-one stages. The tables
  are the same terms of the arguments, and the column read at (r, 0) is the stage read at r: one function.
-/
import proofs.«118623_j7060926234625_2_alg».proof.Proof.KernelValue
import proofs.«118623_j7060926234625_2_alg».proof.Proof.HostSide
import proofs.«118623_j7060926234625_2_alg».proof.Proof.RefSide

noncomputable section

namespace Cert.Bridge

open Idealize.ShloMosaic Idealize.ShloMosaic.TcCoe Idealize.ShloMosaic.ValueIdx
open Cert.KernelIdeal Cert.KernelIdeal.Gen

variable (m : (ℓ : Loc nD τ sig) → Buf (Elt Ideal) ℓ)

/-- The kernel's output array, as a function of the three arguments, is the reference's result. -/
theorem kernel_result (c : Dev nD) :
    Cert.KernelValue.whole (V m c main_arg0) (V m c main_v9) (V m c main_v16)
      = Cert.RefSide.result (m ((c : Thread nD τ).loc main_arg0)) (m ((c : Thread nD τ).loc main_arg1))
          (m ((c : Thread nD τ).loc main_arg2)) := by
  have hd : (fun r : Fin 100000 => (V m c main_v16 : S100000x1.Idx → EReal) (ix2 r (0 : Fin 1)))
      = fun r => Cert.ReferenceIdeal.Read.val_main_v16 (F := Ideal) (m ((c : Thread nD τ).loc main_arg2)) (ix1 r) :=
    funext fun r => Cert.HostSide.degree_at m c r
  funext j
  unfold Cert.KernelValue.whole Cert.RefSide.result
  rw [hd, Cert.HostSide.neigh_eq m c, V_main_arg0 m c]

end Cert.Bridge

end
-- ==== Proof.lean ====
/-
  The certificate's five claims.

  Both programs build, on the host and by the same operations, the table of neighbourhood sums (rows of the feature
  table gathered by source index and scatter-added by destination index) and the vector of in-degrees plus one. The
  reference then forms (sums + features) / (degree + 1), the degree stretched over the 128 features, and joins the
  features with that quotient along the columns. The kernel does the same in 25 blocks of 4000 rows: each block of
  the 100000 × 256 output gets the feature block on the left and the quotient block on the right. Over the extended
  reals the two results are the same function of the arguments, index by index: no law of arithmetic is needed, only
  the layouts (blocks of rows; a column read as a vector), so the finiteness of the inputs is never used.

  The three frames and the idealisation (whose ledger is empty) are immediate from the generated modules.
-/
import proofs.«118623_j7060926234625_2_alg».proof.Defs
import proofs.«118623_j7060926234625_2_alg».proof.Proof.Gen.Kernel
import proofs.«118623_j7060926234625_2_alg».proof.Proof.Gen.Kernel.Skeleton
import proofs.«118623_j7060926234625_2_alg».proof.Proof.Gen.Kernel.Launch
import proofs.«118623_j7060926234625_2_alg».proof.Proof.Gen.Kernel.Points
import proofs.«118623_j7060926234625_2_alg».proof.Proof.Gen.Kernel.Frame
import proofs.«118623_j7060926234625_2_alg».proof.Proof.Gen.KernelIdeal
import proofs.«118623_j7060926234625_2_alg».proof.Proof.Gen.KernelIdeal.Skeleton
import proofs.«118623_j7060926234625_2_alg».proof.Proof.Gen.KernelIdeal.Launch
import proofs.«118623_j7060926234625_2_alg».proof.Proof.Gen.KernelIdeal.Points
import proofs.«118623_j7060926234625_2_alg».proof.Proof.Gen.KernelIdeal.Frame
import proofs.«118623_j7060926234625_2_alg».proof.Proof.Gen.ReferenceIdeal
import proofs.«118623_j7060926234625_2_alg».proof.Proof.Gen.Pre_finite_inputs
import proofs.«118623_j7060926234625_2_alg».proof.Proof.Gen.KernelIdeal.Value
import proofs.«118623_j7060926234625_2_alg».proof.Proof.Gen.ReferenceIdeal.Run
import proofs.«118623_j7060926234625_2_alg».proof.Proof.Gen.ReferenceIdeal.Read
import proofs.«118623_j7060926234625_2_alg».proof.Proof.Bridge
import Idealize.ShloMosaic.Adequacy
import Idealize.ShloMosaic.Init

noncomputable section

namespace Cert.Proof

open Idealize.ShloMosaic Idealize.SL.Sem Cert.Kernel

/-- The word-level kernel runs, faults nowhere and leaves its arguments as they were. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments both idealised programs end with the same result: the kernel's output
    array is `combine` of what its region finds, the reference's result stage is `combine` of its own stages, and
    these are one function of the arguments. -/
theorem algebraic : Cert.algebraic_KernelIdeal_ReferenceIdeal := by
  intro m ρ m' ρ' _ hagree
  refine ⟨fun c => Cert.RefSide.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Bridge.kernel_result m c), (h c).2⟩) (Cert.KernelValue.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, Cert.RefSide.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
